-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 79
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, with the contents of every buffer named at the end.

  The program is seven segments in a row: a stretch of host operations, the first matrix product, a long stretch of
  host operations (degrees, normalisation, gather, scale, scatter-add), the first combine stage, the second matrix
  product, a second stretch of host operations, the second combine stage. The buffer contents at each boundary
  between segments are a fold from the launch memory; the last of them is `W7`. Every weakly fair execution
  terminates without a fault in a state whose unscoped buffers hold exactly `W7`; in particular the result buffer
  holds `W7` there, and the six arguments end as launched.
-/
import proofs.«124086_j14388140441815_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a state whose every unscoped buffer holds the last
    boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_boundary m ρ)

end Cert.KernelIdeal.RunValue

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibRowBlockDot.lean ====
/-
  A row block of a matrix product, at the ideal values.

  For A of M×K and W of K×N the product A · W has at (r, q) the entry  ∑ c < K, A (r, c) · W (c, q):  row r of the
  product depends on row r of A only. So if X (B×K) holds row r of A as its row p — X (p, ·) = A (r, ·) — and W'
  agrees with W on column q, then the product X · W' accumulated onto the zero splat has at (p, q) the entry of
  A · W at (r, q). A product computed one tile of rows at a time is the product. This holds on the extended reals
  with no finiteness: the two sides are the same finite sum of the same products.
-/
import proofs.«124086_j14388140441815_1_alg».proof.Proof.LibMatmulNN

noncomputable section

open scoped BigOperators

namespace Idealize.ShloMosaic.RowBlockDot

open Idealize.ShloMosaic Idealize.ShloMosaic.ValueIdx

variable {M K N : Nat}

/-- The host's A · W (contracting axis 1 of A with axis 0 of W, no batch axis) at (a, b): the sum over the contracted
    coordinate of A (a, c) · W (c, b), whatever the precision and the schedule key. -/
theorem dotGeneral_apply {φ₁ φ₂ : FTy} (prec : Option ContractPrecision) (sched : HostSchedule)
    (A : FVec Ideal ⟨2, ![M, K]⟩ φ₁) (W : FVec Ideal ⟨2, ![K, N]⟩ φ₂) (a : Fin M) (b : Fin N) :
    FloatOps.dotGeneral (DotDims.plain M K N) prec sched A W (ix2 a b) = ∑ c : Fin K, A (ix2 a c) * W (ix2 c b) := by
  rw [Ideal.dotGeneral_apply, ← Equiv.sum_comp (contrEquiv1 (DotDims.plain M K N) K rfl rfl).symm]
  refine Finset.sum_congr rfl fun c _ => ?_
  rw [MatmulNN.lhsIdx_plain, MatmulNN.rhsIdx_plain]

/-- A tile of rows times the right operand, into the zero splat, read at (p, q), is the whole product at (r, q) when
    row p of the tile is row r of the whole left operand and the two right operands agree on column q. -/
theorem matmul_rowBlock {B : Nat} {φ₁ φ₂ ψ₁ ψ₂ : FTy} (prec prec' : Option ContractPrecision) (sched : HostSchedule)
    (A : FVec Ideal ⟨2, ![M, K]⟩ φ₁) (W : FVec Ideal ⟨2, ![K, N]⟩ φ₂)
    (X : FVec Ideal ⟨2, ![B, K]⟩ ψ₁) (W' : FVec Ideal ⟨2, ![K, N]⟩ ψ₂) (p : Fin B) (q : Fin N) (r : Fin M)
    (hX : ∀ c : Fin K, X (ix2 p c) = A (ix2 r c)) (hW : ∀ c : Fin K, W' (ix2 c q) = W (ix2 c q)) :
    FloatOps.matmul (DotDims.plain B K N) prec X W' (constant ⟨2, ![B, N]⟩ .f32 0x00000000#32) (ix2 p q)
      = FloatOps.dotGeneral (DotDims.plain M K N) prec' sched A W (ix2 r q) := by
  rw [MatmulNN.matmul_zero_apply, dotGeneral_apply]
  exact Finset.sum_congr rfl fun c _ => by rw [hX c, hW c]

end Idealize.ShloMosaic.RowBlockDot

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.LibRowTile.lean ====
/-
  A tile of rows against the whole array, at the ideal values, for the row-wise operations of a dense layer.

  Let Y be an n × d array, s an n × 1 column and b a 1 × d row, and let y, s', b' be a tile of B rows of Y, the same
  rows of s, and the row itself. Three operations are "row-local": their result at (r, q) depends only on row r of
  the operands. For each, the tile's result at row p is the whole array's result at row r whenever row p of the tile
  is row r of the array:

  * scaling each row by its entry of the column:   (Y ⊙ s)(r, q) = Y(r, q) · s(r, 0);
  * adding the row to every row:                   (Y ⊕ b)(r, q) = Y(r, q) + b(0, q);
  * clamping at zero:                              max(Y(r, q), 0).

  The tile spells the repetition of the column or of the row as a vector broadcast, the whole array as a
  broadcast-in-dimensions with the identity map of axes; the zero is a scalar splat on the tile and a broadcast of a
  rank-0 constant on the whole array. Nothing here needs finiteness: each side is the same product, sum or maximum of
  the same two extended reals.
-/
import Idealize.ShloMosaic.Lib.ValueIdx
import Idealize.ShloMosaic.Lib.ValueLayout
import Idealize.ShloMosaic.Lib.Pipeline.Value
import Idealize.ShloMosaic.PureOps.Ideal.Laws
import proofs.«124086_j14388140441815_1_alg».proof.Proof.LibColumn

noncomputable section

namespace Cert.Lib.RowTile

open Idealize.ShloMosaic Idealize.ShloMosaic.ValueIdx

variable {n d B : Nat}

/-- An n × 1 column repeated along the second axis (a broadcast-in-dimensions with the identity map of axes) reads,
    at (r, q), the column's entry r. -/
theorem columnInDim_apply {α : Type} (s : (⟨2, ![n, 1]⟩ : Shape).Idx → α)
    (h : (⟨2, ![n, 1]⟩ : Shape).BroadcastsInDim ⟨2, ![n, d]⟩ ![0, 1]) (r : Fin n) (q : Fin d) :
    broadcastInDim ⟨2, ![n, d]⟩ ![0, 1] h s (ix2 r q) = s (ix2 r (0 : Fin 1)) := by
  refine broadcastInDim_apply ![0, 1] h s (ix2 r q) (ix2 r (0 : Fin 1)) fun ax => ?_
  match ax with
  | ⟨0, _⟩ =>
    show r.val = if n = 1 then 0 else r.val
    split
    · have := r.isLt; omega
    · rfl
  | ⟨1, _⟩ => rfl

/-- A 1 × d row repeated along the first axis (a broadcast-in-dimensions with the identity map of axes) reads, at
    (r, q), the row's entry q. -/
theorem rowInDim_apply {α : Type} (b : (⟨2, ![1, d]⟩ : Shape).Idx → α)
    (h : (⟨2, ![1, d]⟩ : Shape).BroadcastsInDim ⟨2, ![n, d]⟩ ![0, 1]) (r : Fin n) (q : Fin d) :
    broadcastInDim ⟨2, ![n, d]⟩ ![0, 1] h b (ix2 r q) = b (ix2 (0 : Fin 1) q) := by
  refine broadcastInDim_apply ![0, 1] h b (ix2 r q) (ix2 (0 : Fin 1) q) fun ax => ?_
  match ax with
  | ⟨0, _⟩ => rfl
  | ⟨1, _⟩ =>
    show q.val = if d = 1 then 0 else q.val
    split
    · have := q.isLt; omega
    · rfl

/-- Rows scaled by a column: the tile's product at row p is the whole array's at row r. -/
theorem scale_tile (y : FVec Ideal ⟨2, ![B, d]⟩ .f32) (s' : FVec Ideal ⟨2, ![B, 1]⟩ .f32)
    (hs : (⟨2, ![B, 1]⟩ : Shape).Broadcasts ⟨2, ![B, d]⟩)
    (Y : FVec Ideal ⟨2, ![n, d]⟩ .f32) (s : FVec Ideal ⟨2, ![n, 1]⟩ .f32)
    (hb : (⟨2, ![n, 1]⟩ : Shape).BroadcastsInDim ⟨2, ![n, d]⟩ ![0, 1])
    (p : Fin B) (q : Fin d) (r : Fin n)
    (hy : y (ix2 p q) = Y (ix2 r q)) (hc : s' (ix2 p (0 : Fin 1)) = s (ix2 r (0 : Fin 1))) :
    mulf y (broadcastTo ⟨2, ![B, d]⟩ s' hs) (ix2 p q)
      = mulf Y (broadcastInDim ⟨2, ![n, d]⟩ ![0, 1] hb s) (ix2 r q) := by
  rw [mulf_apply, mulf_apply, Cert.Lib.Column.broadcastTo_a1_ab_apply, columnInDim_apply, hy, hc]

/-- A row added to every row: the tile's sum at row p is the whole array's at row r. -/
theorem addRow_tile (y : FVec Ideal ⟨2, ![B, d]⟩ .f32) (b' : FVec Ideal ⟨2, ![1, d]⟩ .f32)
    (hs : (⟨2, ![1, d]⟩ : Shape).Broadcasts ⟨2, ![B, d]⟩)
    (Y : FVec Ideal ⟨2, ![n, d]⟩ .f32) (b : FVec Ideal ⟨2, ![1, d]⟩ .f32)
    (hb : (⟨2, ![1, d]⟩ : Shape).BroadcastsInDim ⟨2, ![n, d]⟩ ![0, 1])
    (p : Fin B) (q : Fin d) (r : Fin n)
    (hy : y (ix2 p q) = Y (ix2 r q)) (hr : b' (ix2 (0 : Fin 1) q) = b (ix2 (0 : Fin 1) q)) :
    addf y (broadcastTo ⟨2, ![B, d]⟩ b' hs) (ix2 p q)
      = addf Y (broadcastInDim ⟨2, ![n, d]⟩ ![0, 1] hb b) (ix2 r q) := by
  rw [addf_apply, addf_apply, broadcastTo_1b_ab_apply, rowInDim_apply, hy, hr]

/-- Clamping at zero: the tile's maximum with the splat of the zero word at row p is the whole array's maximum with
    the broadcast rank-0 zero constant at row r. -/
theorem relu_tile (y : FVec Ideal ⟨2, ![B, d]⟩ .f32) (Y : FVec Ideal ⟨2, ![n, d]⟩ .f32)
    (hz : (⟨0, ![]⟩ : Shape).BroadcastsInDim ⟨2, ![n, d]⟩ ![])
    (p : Fin B) (q : Fin d) (r : Fin n) (hy : y (ix2 p q) = Y (ix2 r q)) :
    maximumf y (broadcast ⟨2, ![B, d]⟩ (Scalar.ofBits (F := Ideal) .f32 0x00000000#32)) (ix2 p q)
      = maximumf Y (broadcastInDim ⟨2, ![n, d]⟩ ![] hz (constant (F := Ideal) ⟨0, ![]⟩ .f32 0x00000000#32)) (ix2 r q) := by
  rw [maximumf_apply, maximumf_apply, hy]
  rfl

end Cert.Lib.RowTile

end
-- ==== Proof.LibCombineTile.lean ====
/-
  The combine stage of a graph convolution on a tile of rows against the whole arrays, at the ideal values.

  A graph-convolution layer ends by forming, for n × d arrays Y₀ (aggregated messages) and Y₁ (features), an n × 1
  column s (a per-node weight, for instance 1 / degree) and a 1 × d bias row b,

      Z = Y₀ + Y₁ ⊙ s + b,     Z(r, q) = Y₀(r, q) + Y₁(r, q) · s(r, 0) + b(0, q),

  possibly followed by max(·, 0). The value at (r, q) depends only on row r of Y₀, Y₁ and s. So a kernel that works
  on a tile of B rows — spelling the repetition of the column and of the row as vector broadcasts and the zero as a
  scalar splat — computes at row p of the tile what the whole-array expression — spelt with broadcasts in dimensions
  and a broadcast rank-0 zero — has at row r, whenever row p of each tile operand is row r of the whole operand. Any
  extents B, n, d; no finiteness: both sides are the same sum of the same product and the same three extended reals.
-/
import proofs.«124086_j14388140441815_1_alg».proof.Proof.LibRowTile

noncomputable section

namespace Cert.Lib.CombineTile

open Idealize.ShloMosaic Idealize.ShloMosaic.ValueIdx

variable {n d B : Nat}

/-- Y₀ + Y₁ ⊙ s + b on a tile, at (p, q), is the whole-array expression at (r, q). -/
theorem combine_tile (y0 y1 : FVec Ideal ⟨2, ![B, d]⟩ .f32) (s' : FVec Ideal ⟨2, ![B, 1]⟩ .f32)
    (b' : FVec Ideal ⟨2, ![1, d]⟩ .f32)
    (hs : (⟨2, ![B, 1]⟩ : Shape).Broadcasts ⟨2, ![B, d]⟩) (hr : (⟨2, ![1, d]⟩ : Shape).Broadcasts ⟨2, ![B, d]⟩)
    (Y0 Y1 : FVec Ideal ⟨2, ![n, d]⟩ .f32) (s : FVec Ideal ⟨2, ![n, 1]⟩ .f32) (b : FVec Ideal ⟨2, ![1, d]⟩ .f32)
    (hb : (⟨2, ![n, 1]⟩ : Shape).BroadcastsInDim ⟨2, ![n, d]⟩ ![0, 1])
    (hb' : (⟨2, ![1, d]⟩ : Shape).BroadcastsInDim ⟨2, ![n, d]⟩ ![0, 1])
    (p : Fin B) (q : Fin d) (r : Fin n)
    (h0 : y0 (ix2 p q) = Y0 (ix2 r q)) (h1 : y1 (ix2 p q) = Y1 (ix2 r q))
    (h2 : s' (ix2 p (0 : Fin 1)) = s (ix2 r (0 : Fin 1))) (h3 : b' (ix2 (0 : Fin 1) q) = b (ix2 (0 : Fin 1) q)) :
    addf (addf y0 (mulf y1 (broadcastTo ⟨2, ![B, d]⟩ s' hs))) (broadcastTo ⟨2, ![B, d]⟩ b' hr) (ix2 p q)
      = addf (addf Y0 (mulf Y1 (broadcastInDim ⟨2, ![n, d]⟩ ![0, 1] hb s)))
          (broadcastInDim ⟨2, ![n, d]⟩ ![0, 1] hb' b) (ix2 r q) := by
  refine Cert.Lib.RowTile.addRow_tile _ b' hr _ b hb' p q r ?_ h3
  rw [addf_apply, addf_apply, h0]
  exact congrArg (Y0 (ix2 r q) + ·) (Cert.Lib.RowTile.scale_tile y1 s' hs Y1 s hb p q r h1 h2)

/-- The same stage followed by the maximum with zero. -/
theorem combine_relu_tile (y0 y1 : FVec Ideal ⟨2, ![B, d]⟩ .f32) (s' : FVec Ideal ⟨2, ![B, 1]⟩ .f32)
    (b' : FVec Ideal ⟨2, ![1, d]⟩ .f32)
    (hs : (⟨2, ![B, 1]⟩ : Shape).Broadcasts ⟨2, ![B, d]⟩) (hr : (⟨2, ![1, d]⟩ : Shape).Broadcasts ⟨2, ![B, d]⟩)
    (Y0 Y1 : FVec Ideal ⟨2, ![n, d]⟩ .f32) (s : FVec Ideal ⟨2, ![n, 1]⟩ .f32) (b : FVec Ideal ⟨2, ![1, d]⟩ .f32)
    (hb : (⟨2, ![n, 1]⟩ : Shape).BroadcastsInDim ⟨2, ![n, d]⟩ ![0, 1])
    (hb' : (⟨2, ![1, d]⟩ : Shape).BroadcastsInDim ⟨2, ![n, d]⟩ ![0, 1])
    (hz : (⟨0, ![]⟩ : Shape).BroadcastsInDim ⟨2, ![n, d]⟩ ![])
    (p : Fin B) (q : Fin d) (r : Fin n)
    (h0 : y0 (ix2 p q) = Y0 (ix2 r q)) (h1 : y1 (ix2 p q) = Y1 (ix2 r q))
    (h2 : s' (ix2 p (0 : Fin 1)) = s (ix2 r (0 : Fin 1))) (h3 : b' (ix2 (0 : Fin 1) q) = b (ix2 (0 : Fin 1) q)) :
    maximumf (addf (addf y0 (mulf y1 (broadcastTo ⟨2, ![B, d]⟩ s' hs))) (broadcastTo ⟨2, ![B, d]⟩ b' hr))
        (broadcast ⟨2, ![B, d]⟩ (Scalar.ofBits (F := Ideal) .f32 0x00000000#32)) (ix2 p q)
      = maximumf (addf (addf Y0 (mulf Y1 (broadcastInDim ⟨2, ![n, d]⟩ ![0, 1] hb s)))
          (broadcastInDim ⟨2, ![n, d]⟩ ![0, 1] hb' b))
          (broadcastInDim ⟨2, ![n, d]⟩ ![] hz (constant (F := Ideal) ⟨0, ![]⟩ .f32 0x00000000#32)) (ix2 r q) :=
  Cert.Lib.RowTile.relu_tile _ _ hz p q r (combine_tile y0 y1 s' b' hs hr Y0 Y1 s b hb hb' p q r h0 h1 h2 h3)

end Cert.Lib.CombineTile

end
-- ==== Proof.TileRows.lean ====
/-
  The four kernel bodies, read at one entry of a tile of 5000 rows against the whole arrays.

  Each body works on a tile of 5000 consecutive rows. Two of them multiply the tile by a weight matrix into a zero
  accumulator (the narrowing of the operands to a shorter float format is the identity on the extended reals); the
  other two form  agg + h ⊙ s + b  — the tile of aggregated messages, plus the tile of features with each row scaled
  by its entry of a column s, plus a row b repeated down the tile — and the first of these then takes the maximum with
  zero. All of this is row-local: the body's value at (p, q) depends only on row p of the tile operands. So when row p
  of each tile operand is row r of a whole array of 100000 rows, the body's value at (p, q) is the whole-array
  expression's value at (r, q): the whole product A · W, and the whole  agg + h ⊙ s + b  (clamped at zero or not),
  in the spelling a host program gives them. No finiteness is used anywhere: both sides are the same sums, products
  and maxima of the same extended reals.
-/
import proofs.«124086_j14388140441815_1_alg».proof.Proof.Gen.KernelIdeal.Skeleton
import proofs.«124086_j14388140441815_1_alg».proof.Proof.LibRowBlockDot
import proofs.«124086_j14388140441815_1_alg».proof.Proof.LibCombineTile

noncomputable section

namespace Cert.KernelIdeal.Tile

open Idealize.ShloMosaic Idealize.ShloMosaic.ValueIdx Cert.KernelIdeal Cert.KernelIdeal.Gen

/-- The first product: a tile of rows of A times W (128 columns) at (p, q) is A · W at (r, q). -/
theorem dense128_row (x0 : Vec Ideal S5000x128 .f32) (x1 : Vec Ideal S128x128 .f32)
    (A : FVec Ideal ⟨2, ![100000, 128]⟩ .f32) (W : FVec Ideal ⟨2, ![128, 128]⟩ .f32)
    (p : Fin 5000) (q : Fin 128) (r : Fin 100000)
    (hX : ∀ c : Fin 128, x0 (ix2 p c) = A (ix2 r c)) (hW : ∀ c : Fin 128, x1 (ix2 c q) = W (ix2 c q)) :
    k0_pay1 (F := Ideal) x0 x1 (ix2 p q) = Host.dotGeneral (DotDims.plain 100000 128 128) none A W (ix2 r q) :=
  RowBlockDot.matmul_rowBlock (B := 5000) none none .single A W
    (truncf .bf16 x0 bitsLt_bf16_f32) (truncf .bf16 x1 bitsLt_bf16_f32) p q r hX hW

/-- The second product: a tile of rows of A times W (64 columns) at (p, q) is A · W at (r, q). -/
theorem dense64_row (x0 : Vec Ideal S5000x128 .f32) (x1 : Vec Ideal S128x64 .f32)
    (A : FVec Ideal ⟨2, ![100000, 128]⟩ .f32) (W : FVec Ideal ⟨2, ![128, 64]⟩ .f32)
    (p : Fin 5000) (q : Fin 64) (r : Fin 100000)
    (hX : ∀ c : Fin 128, x0 (ix2 p c) = A (ix2 r c)) (hW : ∀ c : Fin 128, x1 (ix2 c q) = W (ix2 c q)) :
    k2_pay1 (F := Ideal) x0 x1 (ix2 p q) = Host.dotGeneral (DotDims.plain 100000 128 64) none A W (ix2 r q) := by
  unfold k2_pay1
  rw [shapeCast_self]
  exact RowBlockDot.matmul_rowBlock (B := 5000) none none .single A W
    (truncf .bf16 x0 bitsLt_bf16_f32) (truncf .bf16 x1 bitsLt_bf16_f32) p q r hX hW

/-- The hidden layer's combine stage (128 columns, clamped at zero) on a tile, at (p, q). -/
theorem combineRelu128_row (x0 x1 : Vec Ideal S5000x128 .f32) (x2 : Vec Ideal S5000x1 .f32) (x3 : Vec Ideal S1x128 .f32)
    (agg h : FVec Ideal ⟨2, ![100000, 128]⟩ .f32) (col : FVec Ideal ⟨2, ![100000, 1]⟩ .f32)
    (row : FVec Ideal ⟨2, ![1, 128]⟩ .f32)
    (hb : (⟨2, ![100000, 1]⟩ : Shape).BroadcastsInDim ⟨2, ![100000, 128]⟩ ![0, 1])
    (hb' : (⟨2, ![1, 128]⟩ : Shape).BroadcastsInDim ⟨2, ![100000, 128]⟩ ![0, 1])
    (hz : (⟨0, ![]⟩ : Shape).BroadcastsInDim ⟨2, ![100000, 128]⟩ ![])
    (p : Fin 5000) (q : Fin 128) (r : Fin 100000)
    (h0 : x0 (ix2 p q) = agg (ix2 r q)) (h1 : x1 (ix2 p q) = h (ix2 r q))
    (h2 : x2 (ix2 p (0 : Fin 1)) = col (ix2 r (0 : Fin 1))) (h3 : x3 (ix2 (0 : Fin 1) q) = row (ix2 (0 : Fin 1) q)) :
    k1_pay1 (F := Ideal) x0 x1 x2 x3 (ix2 p q)
      = maximumf (addf (addf agg (mulf h (broadcastInDim ⟨2, ![100000, 128]⟩ ![0, 1] hb col)))
          (broadcastInDim ⟨2, ![100000, 128]⟩ ![0, 1] hb' row))
          (broadcastInDim ⟨2, ![100000, 128]⟩ ![] hz (constant (F := Ideal) ⟨0, ![]⟩ .f32 0x00000000#32)) (ix2 r q) := by
  unfold k1_pay1
  simp only [shapeCast_self]
  exact Cert.Lib.CombineTile.combine_relu_tile (B := 5000) x0 x1 x2 x3 broadcasts_S5000x1_S5000x128 broadcasts_S1x128_S5000x128
    agg h col row hb hb' hz p q r h0 h1 h2 h3

/-- The output layer's combine stage (64 columns, not clamped) on a tile, at (p, q). -/
theorem combine64_row (x0 x1 : Vec Ideal S5000x64 .f32) (x2 : Vec Ideal S5000x1 .f32) (x3 : Vec Ideal S1x64 .f32)
    (agg h : FVec Ideal ⟨2, ![100000, 64]⟩ .f32) (col : FVec Ideal ⟨2, ![100000, 1]⟩ .f32)
    (row : FVec Ideal ⟨2, ![1, 64]⟩ .f32)
    (hb : (⟨2, ![100000, 1]⟩ : Shape).BroadcastsInDim ⟨2, ![100000, 64]⟩ ![0, 1])
    (hb' : (⟨2, ![1, 64]⟩ : Shape).BroadcastsInDim ⟨2, ![100000, 64]⟩ ![0, 1])
    (p : Fin 5000) (q : Fin 64) (r : Fin 100000)
    (h0 : x0 (ix2 p q) = agg (ix2 r q)) (h1 : x1 (ix2 p q) = h (ix2 r q))
    (h2 : x2 (ix2 p (0 : Fin 1)) = col (ix2 r (0 : Fin 1))) (h3 : x3 (ix2 (0 : Fin 1) q) = row (ix2 (0 : Fin 1) q)) :
    k3_pay1 (F := Ideal) x0 x1 x2 x3 (ix2 p q)
      = addf (addf agg (mulf h (broadcastInDim ⟨2, ![100000, 64]⟩ ![0, 1] hb col)))
          (broadcastInDim ⟨2, ![100000, 64]⟩ ![0, 1] hb' row) (ix2 r q) := by
  unfold k3_pay1
  simp only [shapeCast_self]
  exact Cert.Lib.CombineTile.combine_tile (B := 5000) x0 x1 x2 x3 broadcasts_S5000x1_S5000x64 broadcasts_S1x64_S5000x64
    agg h col row hb hb' p q r h0 h1 h2 h3

end Cert.KernelIdeal.Tile

end
-- ==== Proof.DenseBlocks128.lean ====
/-
  The first matrix product, from blocks to the whole array.

  The grid has 20 points; point t works on rows 5000·t … 5000·t + 4999 of the left operand (all 128 columns), on the
  whole 128 × 128 weight matrix, and writes back the same rows of the result. A block's entry (p, q) is therefore the
  array's entry (5000·t + p, q), and the 20 blocks tile the 100000 rows. Since a row of a product depends only on the
  same row of the left operand, what point t writes back is block t of the whole product A · W, and after the last
  point the result array holds A · W — whatever the arrays held when the stage was entered.
-/
import proofs.«124086_j14388140441815_1_alg».proof.Proof.Gen.KernelIdeal.Frame
import proofs.«124086_j14388140441815_1_alg».proof.Proof.TileRows

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product A · W of a 100000 × 128 array and a 128 × 128 matrix, as the host spells it. -/
abbrev prod128 (A : S100000x128.Idx → Elt Ideal .f32) (W : S128x128.Idx → Elt Ideal .f32) : S100000x128.Idx → Elt Ideal .f32 :=
  Host.dotGeneral (F := Ideal) (φ₁ := .f32) (φ₂ := .f32) (DotDims.plain 100000 128 128) none A W

theorem zeros2 : (![0, 0] : Fin 2 → Nat) = fun _ => 0 := funext fun a => by fin_cases a <;> rfl

/-- The block indices of the three windows over the grid: the row block moves with the point, everything else stays
    at 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal)
      (prod128 (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := index0 t
  have ht : t.val < 20 := t.isLt
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = prod128 (V c main_arg0) (V c main_arg2) (((cfg0.win 2).blk t).view.emb (ix2 p q))
  have hout : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hout]
  refine Tile.dense128_row (iblk0 V c 0 t) (iblk0 V c 1 t) (V c main_arg0) (V c main_arg2) p q _ (fun k => ?_) (fun k => ?_)
  · show V c main_arg0 (((cfg0.win 0).blk t).view.emb (ix2 p k)) = V c main_arg0 (ix2 (⟨t.val * 5000 + p.val, by omega⟩ : Fin 100000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every row is in the block of the point its number divided by 5000 names. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  obtain ⟨e0, e1, e2, e3, e4, e5⟩ := index0 ⟨(i 0).val / 5000, by show (i 0).val / 5000 < 20; omega⟩
  rw [mem_blk0]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- After the last point the result array holds the whole product of the two arrays the stage found. -/
theorem final0 (c : Dev nD) : (dat0 V c).arrAt 2 cfg0.N
    = prod128 (V c main_arg0) (V c main_arg2) :=
  (dat0 V c).arrAt_eq_of_cover 2 _ (fun t _ => flushed0 V c t) cover0

end Cert.KernelIdeal.Blocks

end
-- ==== Proof.DenseBlocks64.lean ====
/-
  The second matrix product, from blocks to the whole array.

  As for the first product: 20 grid points, point t working on rows 5000·t … 5000·t + 4999 of the left operand (128
  columns), on the whole 128 × 64 weight matrix, and writing back the same rows of the 64-column result. What point t
  writes back is block t of the whole product A · W, the 20 blocks tile the rows, and after the last point the result
  array holds A · W of the two arrays the stage found.
-/
import proofs.«124086_j14388140441815_1_alg».proof.Proof.Gen.KernelIdeal.Frame
import proofs.«124086_j14388140441815_1_alg».proof.Proof.TileRows

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product A · W of a 100000 × 128 array and a 128 × 64 matrix, as the host spells it. -/
abbrev prod64 (A : S100000x128.Idx → Elt Ideal .f32) (W : S128x64.Idx → Elt Ideal .f32) : S100000x64.Idx → Elt Ideal .f32 :=
  Host.dotGeneral (F := Ideal) (φ₁ := .f32) (φ₂ := .f32) (DotDims.plain 100000 128 64) none A W

theorem zeros2' : (![0, 0] : Fin 2 → Nat) = fun _ => 0 := funext fun a => by fin_cases a <;> rfl

/-- The block indices of the three windows over the grid: the row block moves with the point, everything else stays
    at 0. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed2 (c : Dev nD) (t : Fin cfg2.N) :
    (dat2 V c).flushed 2 t = ((cfg2.win 2).blk t).view.read (Elt Ideal) (prod64 (V c main_v43) (V c main_arg4)) := by
  show (cfg2.win 2).cut (grid2.coords t) ((dat2 V c).after 2 t) = _
  rw [after2_2]
  unfold out2_2
  rw [View.canon_unit_zero zeros2']
  simp only [View.ld_unit_zero (S := S5000x128) zeros2', View.ld_unit_zero (S := S128x64) zeros2']
  obtain ⟨e0, e1, e2, e3, e4, e5⟩ := index2 t
  have ht : t.val < 20 := t.isLt
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = prod64 (V c main_v43) (V c main_arg4) (((cfg2.win 2).blk t).view.emb (ix2 p q))
  have hout : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hout]
  refine Tile.dense64_row (iblk2 V c 0 t) (iblk2 V c 1 t) (V c main_v43) (V c main_arg4) p q _ (fun k => ?_) (fun k => ?_)
  · show V c main_v43 (((cfg2.win 0).blk t).view.emb (ix2 p k)) = V c main_v43 (ix2 (⟨t.val * 5000 + p.val, by omega⟩ : Fin 100000) k)
    refine congrArg (V c main_v43) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Every row is in the block of the point its number divided by 5000 names. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by show (i 0).val / 5000 < 20; omega⟩, flush2_2 _, ?_⟩
  obtain ⟨e0, e1, e2, e3, e4, e5⟩ := index2 ⟨(i 0).val / 5000, by show (i 0).val / 5000 < 20; omega⟩
  rw [mem_blk2]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- After the last point the result array holds the whole product of the two arrays the stage found. -/
theorem final2 (c : Dev nD) : (dat2 V c).arrAt 2 cfg2.N = prod64 (V c main_v43) (V c main_arg4) :=
  (dat2 V c).arrAt_eq_of_cover 2 _ (fun t _ => flushed2 V c t) cover2

end Cert.KernelIdeal.Blocks

end
-- ==== Proof.CombineBlocks128.lean ====
/-
  The hidden layer's combine stage, from blocks to the whole array.

  The grid has 20 points; point t works on rows 5000·t … 5000·t + 4999 of the aggregated messages, of the features and
  of the one-column array of self-loop weights, on the whole 1 × 128 bias row, and writes back the same rows of the
  result. The stage's value at a row depends only on that row of its operands (and on the bias row), so what point t
  writes back is block t of the whole-array expression  max(agg + h ⊙ s + b, 0)  in the host's spelling — the
  column repeated along the rows' entries and the row repeated down the rows by broadcasts in dimensions — and the 20
  blocks tile the 100000 rows: after the last point the result array holds that expression of the four arrays the
  stage found, whatever they are.
-/
import proofs.«124086_j14388140441815_1_alg».proof.Proof.Gen.KernelIdeal.Frame
import proofs.«124086_j14388140441815_1_alg».proof.Proof.TileRows

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem colInDim128 : S100000x1.BroadcastsInDim S100000x128 (![0, 1] : Fin 2 → Fin S100000x128.rank) := by decide
theorem rowInDim128 : S1x128.BroadcastsInDim S100000x128 (![0, 1] : Fin 2 → Fin S100000x128.rank) := by decide
theorem zeroInDim128 : S_.BroadcastsInDim S100000x128 (![] : Fin 0 → Fin S100000x128.rank) := by decide

/-- max(agg + h ⊙ s + b, 0) over the whole arrays, as the host spells it. -/
abbrev hidden128 (agg h : S100000x128.Idx → Elt Ideal .f32) (col : S100000x1.Idx → Elt Ideal .f32) (row : S1x128.Idx → Elt Ideal .f32) :
    S100000x128.Idx → Elt Ideal .f32 :=
  maximumf (F := Ideal) (s := S100000x128) (φ := .f32) (addf (F := Ideal) (s := S100000x128) (φ := .f32) (addf (F := Ideal) (s := S100000x128) (φ := .f32) agg (mulf (F := Ideal) (s := S100000x128) (φ := .f32) h (broadcastInDim S100000x128 ![0, 1] colInDim128 col)))
    (broadcastInDim S100000x128 ![0, 1] rowInDim128 row))
    (broadcastInDim S100000x128 ![] zeroInDim128 (constant (F := Ideal) S_ .f32 0x00000000#32))

theorem zeros2a : (![0, 0] : Fin 2 → Nat) = fun _ => 0 := funext fun a => by fin_cases a <;> rfl

/-- The block indices of the five windows over the grid: the row block moves with the point, everything else stays
    at 0. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array expression. -/
theorem flushed1 (c : Dev nD) (t : Fin cfg1.N) :
    (dat1 V c).flushed 4 t = ((cfg1.win 4).blk t).view.read (Elt Ideal)
      (hidden128 (V c main_v41) (V c main_v4) (V c main_v28) (V c main_v42)) := by
  show (cfg1.win 4).cut (grid1.coords t) ((dat1 V c).after 4 t) = _
  rw [after1_4]
  unfold out1_4
  rw [View.canon_unit_zero zeros2a]
  simp only [View.ld_unit_zero (S := S5000x128) zeros2a, View.ld_unit_zero (S := S5000x1) zeros2a, View.ld_unit_zero (S := S1x128) zeros2a]
  obtain ⟨e0, e1, e2, e3, e4, e5, e6, e7, e8, e9⟩ := index1 t
  have ht : t.val < 20 := t.isLt
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = hidden128 (V c main_v41) (V c main_v4) (V c main_v28) (V c main_v42) (((cfg1.win 4).blk t).view.emb (ix2 p q))
  have hout : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [hout]
  refine Tile.combineRelu128_row (iblk1 V c 0 t) (iblk1 V c 1 t) (iblk1 V c 2 t) (iblk1 V c 3 t)
    (V c main_v41) (V c main_v4) (V c main_v28) (V c main_v42) colInDim128 rowInDim128 zeroInDim128 p q _ ?_ ?_ ?_ ?_
  · show V c main_v41 (((cfg1.win 0).blk t).view.emb (ix2 p q)) = V c main_v41 (ix2 (⟨t.val * 5000 + p.val, by omega⟩ : Fin 100000) q)
    refine congrArg (V c main_v41) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v4 (((cfg1.win 1).blk t).view.emb (ix2 p q)) = V c main_v4 (ix2 (⟨t.val * 5000 + p.val, by omega⟩ : Fin 100000) q)
    refine congrArg (V c main_v4) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  · show V c main_v28 (((cfg1.win 2).blk t).view.emb (ix2 p (0 : Fin 1))) = V c main_v28 (ix2 (⟨t.val * 5000 + p.val, by omega⟩ : Fin 100000) (0 : Fin 1))
    refine congrArg (V c main_v28) ?_
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  · show V c main_v42 (((cfg1.win 3).blk t).view.emb (ix2 (0 : Fin 1) q)) = V c main_v42 (ix2 (0 : Fin 1) q)
    refine congrArg (V c main_v42) ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega

/-- An index of the result array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every row is in the block of the point its number divided by 5000 names. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  refine ⟨⟨(i 0).val / 5000, by show (i 0).val / 5000 < 20; omega⟩, flush1_4 _, ?_⟩
  obtain ⟨e0, e1, e2, e3, e4, e5, e6, e7, e8, e9⟩ := index1 ⟨(i 0).val / 5000, by show (i 0).val / 5000 < 20; omega⟩
  rw [mem_blk1]
  intro a
  match a with
  | ⟨0, _⟩ => show win1_4.index _ (0 : Fin 2) * 5000 ≤ (i 0).val ∧ (i 0).val < win1_4.index _ (0 : Fin 2) * 5000 + 5000; rw [e8]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e9]; omega

/-- After the last point the result array holds the whole-array expression of the four arrays the stage found. -/
theorem final1 (c : Dev nD) : (dat1 V c).arrAt 4 cfg1.N
    = hidden128 (V c main_v41) (V c main_v4) (V c main_v28) (V c main_v42) :=
  (dat1 V c).arrAt_eq_of_cover 4 _ (fun t _ => flushed1 V c t) cover1

end Cert.KernelIdeal.Blocks

end
-- ==== Proof.CombineBlocks64.lean ====
/-
  The output layer's combine stage, from blocks to the whole array.

  The grid has 20 points; point t works on rows 5000·t … 5000·t + 4999 of the aggregated messages, of the features and
  of the one-column array of self-loop weights, on the whole 1 × 64 bias row, and writes back the same rows of the
  result. The stage's value at a row depends only on that row of its operands (and on the bias row), so what point t
  writes back is block t of the whole-array expression  agg + h ⊙ s + b  in the host's spelling — the
  column repeated along the rows' entries and the row repeated down the rows by broadcasts in dimensions — and the 20
  blocks tile the 100000 rows: after the last point the result array holds that expression of the four arrays the
  stage found, whatever they are.
-/
import proofs.«124086_j14388140441815_1_alg».proof.Proof.Gen.KernelIdeal.Frame
import proofs.«124086_j14388140441815_1_alg».proof.Proof.TileRows

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem colInDim64 : S100000x1.BroadcastsInDim S100000x64 (![0, 1] : Fin 2 → Fin S100000x64.rank) := by decide
theorem rowInDim64 : S1x64.BroadcastsInDim S100000x64 (![0, 1] : Fin 2 → Fin S100000x64.rank) := by decide

/-- agg + h ⊙ s + b over the whole arrays, as the host spells it. -/
abbrev output64 (agg h : S100000x64.Idx → Elt Ideal .f32) (col : S100000x1.Idx → Elt Ideal .f32) (row : S1x64.Idx → Elt Ideal .f32) :
    S100000x64.Idx → Elt Ideal .f32 :=
  addf (F := Ideal) (s := S100000x64) (φ := .f32) (addf (F := Ideal) (s := S100000x64) (φ := .f32) agg (mulf (F := Ideal) (s := S100000x64) (φ := .f32) h (broadcastInDim S100000x64 ![0, 1] colInDim64 col)))
    (broadcastInDim S100000x64 ![0, 1] rowInDim64 row)

theorem zeros2b : (![0, 0] : Fin 2 → Nat) = fun _ => 0 := funext fun a => by fin_cases a <;> rfl

/-- The block indices of the five windows over the grid: the row block moves with the point, everything else stays
    at 0. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the whole-array expression. -/
theorem flushed3 (c : Dev nD) (t : Fin cfg3.N) :
    (dat3 V c).flushed 4 t = ((cfg3.win 4).blk t).view.read (Elt Ideal)
      (output64 (V c main_v57) (V c main_v44) (V c main_v28) (V c main_v58)) := by
  show (cfg3.win 4).cut (grid3.coords t) ((dat3 V c).after 4 t) = _
  rw [after3_4]
  unfold out3_4
  rw [View.canon_unit_zero zeros2b]
  simp only [View.ld_unit_zero (S := S5000x64) zeros2b, View.ld_unit_zero (S := S5000x1) zeros2b, View.ld_unit_zero (S := S1x64) zeros2b]
  obtain ⟨e0, e1, e2, e3, e4, e5, e6, e7, e8, e9⟩ := index3 t
  have ht : t.val < 20 := t.isLt
  funext j
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (iblk3 V c 3 t) (ix2 p q)
    = output64 (V c main_v57) (V c main_v44) (V c main_v28) (V c main_v58) (((cfg3.win 4).blk t).view.emb (ix2 p q))
  have hout : ((cfg3.win 4).blk t).view.emb (ix2 p q) = ix2 (⟨t.val * 5000 + p.val, by omega⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  rw [hout]
  refine Tile.combine64_row (iblk3 V c 0 t) (iblk3 V c 1 t) (iblk3 V c 2 t) (iblk3 V c 3 t)
    (V c main_v57) (V c main_v44) (V c main_v28) (V c main_v58) colInDim64 rowInDim64 p q _ ?_ ?_ ?_ ?_
  · show V c main_v57 (((cfg3.win 0).blk t).view.emb (ix2 p q)) = V c main_v57 (ix2 (⟨t.val * 5000 + p.val, by omega⟩ : Fin 100000) q)
    refine congrArg (V c main_v57) ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  · show V c main_v44 (((cfg3.win 1).blk t).view.emb (ix2 p q)) = V c main_v44 (ix2 (⟨t.val * 5000 + p.val, by omega⟩ : Fin 100000) q)
    refine congrArg (V c main_v44) ?_
    funext a; apply Fin.ext
    match a with
    | ⟨0, _⟩ => show win3_1.index t (0 : Fin 2) * 5000 + 1 * p.val = t.val * 5000 + p.val; omega
    | ⟨1, _⟩ => show win3_1.index t (1 : Fin 2) * 64 + 1 * q.val = q.val; omega
  · show V c main_v28 (((cfg3.win 2).blk t).view.emb (ix2 p (0 : Fin 1))) = V c main_v28 (ix2 (⟨t.val * 5000 + p.val, by omega⟩ : Fin 100000) (0 : Fin 1))
    refine congrArg (V c main_v28) ?_
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  · show V c main_v58 (((cfg3.win 3).blk t).view.emb (ix2 (0 : Fin 1) q)) = V c main_v58 (ix2 (0 : Fin 1) q)
    refine congrArg (V c main_v58) ?_
    funext a; apply Fin.ext
    match a with
    | ⟨0, _⟩ => show win3_3.index t (0 : Fin 2) * 1 + 1 * 0 = 0; omega
    | ⟨1, _⟩ => show win3_3.index t (1 : Fin 2) * 64 + 1 * q.val = q.val; omega

/-- An index of the result array is in point t's block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v59).slice (win3_4.rect t)).set ↔ _
  rw [View.set_slice_whole, Rect.mem_set_unit]
  exact Iff.rfl

/-- Every row is in the block of the point its number divided by 5000 names. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 5000, by show (i 0).val / 5000 < 20; omega⟩, flush3_4 _, ?_⟩
  obtain ⟨e0, e1, e2, e3, e4, e5, e6, e7, e8, e9⟩ := index3 ⟨(i 0).val / 5000, by show (i 0).val / 5000 < 20; omega⟩
  rw [mem_blk3]
  intro a
  match a with
  | ⟨0, _⟩ => show win3_4.index _ (0 : Fin 2) * 5000 ≤ (i 0).val ∧ (i 0).val < win3_4.index _ (0 : Fin 2) * 5000 + 5000; rw [e8]; show (i 0).val / 5000 * 5000 ≤ (i 0).val ∧ (i 0).val < (i 0).val / 5000 * 5000 + 5000; omega
  | ⟨1, _⟩ => show win3_4.index _ (1 : Fin 2) * 64 ≤ (i 1).val ∧ (i 1).val < win3_4.index _ (1 : Fin 2) * 64 + 64; rw [e9]; omega

/-- After the last point the result array holds the whole-array expression of the four arrays the stage found. -/
theorem final3 (c : Dev nD) : (dat3 V c).arrAt 4 cfg3.N
    = output64 (V c main_v57) (V c main_v44) (V c main_v28) (V c main_v58) :=
  (dat3 V c).arrAt_eq_of_cover 4 _ (fun t _ => flushed3 V c t) cover3

end Cert.KernelIdeal.Blocks

end
-- ==== Proof.LibVec.lean ====
/-
  Two general facts about vectors of extended reals, used where two programs spell one array differently.
-/
import Idealize.ShloMosaic.PureOps.Ideal
import Idealize.ShloMosaic.Lib.ValueIdx
import Idealize.ShloMosaic.Lib.Pipeline.Value

noncomputable section

namespace Cert.LibVec

open Idealize.ShloMosaic

/-- The entrywise product of two vectors of extended reals does not depend on the order of its factors:
    multiplication of extended reals is commutative, at the infinities too. -/
theorem mulf_comm {s : Shape} {φ : FTy} (a b : FVec Ideal s φ) : mulf a b = mulf b a :=
  funext fun i => mul_comm (a i) (b i)

/-- A vector of n entries laid out as a matrix of one row is the same array whether the row is made by re-laying
    the n entries in row-major order or by broadcasting entry j to position (0, j): both put entry j at (0, j). -/
theorem row_of_vec {α : Type} {n : Nat} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) (hn : n ≠ 1) :
    shapeCast ⟨2, ![1, n]⟩ x h = broadcastInDim ⟨2, ![1, n]⟩ ![1] h' x := by
  funext j
  have hj0 : (j 0).val = 0 := by have := (j 0).isLt; simp at this; omega
  have e1 : shapeCast ⟨2, ![1, n]⟩ x h j = x (ValueIdx.ix1 (j 1)) :=
    shapeCast_apply x h j (ValueIdx.ix1 (j 1)) (by
      rw [Shape.rowMajor_val_one, Shape.rowMajor_val_two]
      show (j 1).val = (j 0).val * n + (j 1).val
      rw [hj0]; omega)
  have e2 : broadcastInDim ⟨2, ![1, n]⟩ ![1] h' x j = x (ValueIdx.ix1 (j 1)) :=
    broadcastInDim_apply ![1] h' x j (ValueIdx.ix1 (j 1)) (fun a => match a with
      | ⟨0, _⟩ => by show (j 1).val = if n = 1 then 0 else (j 1).val; rw [if_neg hn])
  rw [e1, e2]

end Cert.LibVec

end
-- ==== Proof.Boundaries.lean ====
/-
  The contents of the buffers at each boundary of the kernel's program, as functions of the six arguments.

  Between the launch and the return the program passes seven boundaries. At each one, every buffer a later segment
  reads is named here by the stage of the reference computation it equals: the two index vectors cut out of the edge
  list, the first product x · W1, the normalisation weights and their products, the aggregated messages, the hidden
  layer, the second product, the second aggregation, and the result. A host stretch is read operation by operation; a
  kernel stage through "after the last grid point the result array is the whole-array expression of the arrays the
  stage found". The one place where the two programs spell an array differently is the bias row: the kernel re-lays
  the bias vector as a 1 × d row, the reference broadcasts it into one; both put entry j at (0, j).
-/
import proofs.«124086_j14388140441815_1_alg».proof.Proof.Gen.KernelIdeal.Frame
import proofs.«124086_j14388140441815_1_alg».proof.Proof.Gen.ReferenceIdeal.Read
import proofs.«124086_j14388140441815_1_alg».proof.Proof.DenseBlocks128
import proofs.«124086_j14388140441815_1_alg».proof.Proof.DenseBlocks64
import proofs.«124086_j14388140441815_1_alg».proof.Proof.CombineBlocks128
import proofs.«124086_j14388140441815_1_alg».proof.Proof.CombineBlocks64
import proofs.«124086_j14388140441815_1_alg».proof.Proof.LibVec
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem
open Cert.ReferenceIdeal.Read (val_main_v1 val_main_v3 val_main_v4 val_main_v26 val_main_v39 val_main_v41 val_main_v45
  val_main_v48 val_main_v49 val_main_v84 val_main_v90 val_main_v92)

variable (m : (ℓ : Loc nD τ sig) → Buf (Elt Ideal) ℓ) (ρ : Dev nD → PrngReg) (c : Dev nD)

/-- The six arguments as launched, on core c. -/
abbrev x0 (m : (ℓ : Loc nD τ sig) → Buf (Elt Ideal) ℓ) (c : Dev nD) : S100000x128.Idx → Elt Ideal .f32 := m ((c : Thread nD τ).loc main_arg0)
abbrev x1 (m : (ℓ : Loc nD τ sig) → Buf (Elt Ideal) ℓ) (c : Dev nD) : S2x1600000.Idx → Elt Ideal .i32 := m ((c : Thread nD τ).loc main_arg1)
abbrev x2 (m : (ℓ : Loc nD τ sig) → Buf (Elt Ideal) ℓ) (c : Dev nD) : S128x128.Idx → Elt Ideal .f32 := m ((c : Thread nD τ).loc main_arg2)
abbrev x3 (m : (ℓ : Loc nD τ sig) → Buf (Elt Ideal) ℓ) (c : Dev nD) : S128.Idx → Elt Ideal .f32 := m ((c : Thread nD τ).loc main_arg3)
abbrev x4 (m : (ℓ : Loc nD τ sig) → Buf (Elt Ideal) ℓ) (c : Dev nD) : S128x64.Idx → Elt Ideal .f32 := m ((c : Thread nD τ).loc main_arg4)
abbrev x5 (m : (ℓ : Loc nD τ sig) → Buf (Elt Ideal) ℓ) (c : Dev nD) : S64.Idx → Elt Ideal .f32 := m ((c : Thread nD τ).loc main_arg5)
/-! ## After the first host stretch: the two index vectors, the arguments untouched -/

theorem W1_v1 : W1 m ρ c (Proc.devRef .tc main_v1) = val_main_v1 (x1 m c) := by
  show StableHlo.after hostOps0 (W0 m ρ c) (Proc.devRef .tc main_v1) = _
  after_results_simp
  rfl
theorem W1_v3 : W1 m ρ c (Proc.devRef .tc main_v3) = val_main_v3 (x1 m c) := by
  show StableHlo.after hostOps0 (W0 m ρ c) (Proc.devRef .tc main_v3) = _
  after_results_simp
  rfl
theorem W1_arg0 : W1 m ρ c (Proc.devRef .tc main_arg0) = (x0 m c) := by
  show StableHlo.after hostOps0 (W0 m ρ c) (Proc.devRef .tc main_arg0) = _
  after_results_simp
theorem W1_arg2 : W1 m ρ c (Proc.devRef .tc main_arg2) = (x2 m c) := by
  show StableHlo.after hostOps0 (W0 m ρ c) (Proc.devRef .tc main_arg2) = _
  after_results_simp
theorem W1_arg3 : W1 m ρ c (Proc.devRef .tc main_arg3) = (x3 m c) := by
  show StableHlo.after hostOps0 (W0 m ρ c) (Proc.devRef .tc main_arg3) = _
  after_results_simp
theorem W1_arg4 : W1 m ρ c (Proc.devRef .tc main_arg4) = (x4 m c) := by
  show StableHlo.after hostOps0 (W0 m ρ c) (Proc.devRef .tc main_arg4) = _
  after_results_simp
theorem W1_arg5 : W1 m ρ c (Proc.devRef .tc main_arg5) = (x5 m c) := by
  show StableHlo.after hostOps0 (W0 m ρ c) (Proc.devRef .tc main_arg5) = _
  after_results_simp

/-! ## After the first product -/

theorem W2_v4 : W2 m ρ c (Proc.devRef .tc main_v4) = val_main_v4 (x0 m c) (x2 m c) :=
  (W2_arr m ρ c 2).trans ((Cert.KernelIdeal.Blocks.final0 (V1 m ρ) c).trans (by
    rw [show V1 m ρ c main_arg0 = (x0 m c) from W1_arg0 m ρ c, show V1 m ρ c main_arg2 = (x2 m c) from W1_arg2 m ρ c]
    rfl))
theorem W2_v1 : W2 m ρ c (Proc.devRef .tc main_v1) = val_main_v1 (x1 m c) := (W2_of_ne m ρ c main_v1 (by decide)).trans (W1_v1 m ρ c)
theorem W2_v3 : W2 m ρ c (Proc.devRef .tc main_v3) = val_main_v3 (x1 m c) := (W2_of_ne m ρ c main_v3 (by decide)).trans (W1_v3 m ρ c)
theorem W2_arg3 : W2 m ρ c (Proc.devRef .tc main_arg3) = (x3 m c) := (W2_of_ne m ρ c main_arg3 (by decide)).trans (W1_arg3 m ρ c)
theorem W2_arg4 : W2 m ρ c (Proc.devRef .tc main_arg4) = (x4 m c) := (W2_of_ne m ρ c main_arg4 (by decide)).trans (W1_arg4 m ρ c)
theorem W2_arg5 : W2 m ρ c (Proc.devRef .tc main_arg5) = (x5 m c) := (W2_of_ne m ρ c main_arg5 (by decide)).trans (W1_arg5 m ρ c)

/-! ## After the long host stretch: normalisation, self-loop weights, the first aggregation, the bias row -/

theorem W3_v41 : W3 m ρ c (Proc.devRef .tc main_v41) = val_main_v39 (x0 m c) (x1 m c) (x2 m c) := by
  show StableHlo.after hostOps1 (W2 m ρ c) (Proc.devRef .tc main_v41) = _
  after_results_simp
  rw [W2_v1, W2_v3, W2_v4]
  rfl
theorem W3_v28 : W3 m ρ c (Proc.devRef .tc main_v28) = val_main_v41 (x1 m c) := by
  show StableHlo.after hostOps1 (W2 m ρ c) (Proc.devRef .tc main_v28) = _
  after_results_simp
  rw [W2_v3]
  rfl
theorem W3_v26 : W3 m ρ c (Proc.devRef .tc main_v26) = val_main_v26 (x1 m c) := by
  show StableHlo.after hostOps1 (W2 m ρ c) (Proc.devRef .tc main_v26) = _
  after_results_simp
  rw [W2_v1, W2_v3]
  rfl
theorem W3_v42 : W3 m ρ c (Proc.devRef .tc main_v42) = val_main_v45 (x3 m c) := by
  show StableHlo.after hostOps1 (W2 m ρ c) (Proc.devRef .tc main_v42) = _
  after_results_simp
  rw [W2_arg3]
  exact Cert.LibVec.row_of_vec (n := 128) (x3 m c) _ _ (by decide)
theorem W3_v4 : W3 m ρ c (Proc.devRef .tc main_v4) = val_main_v4 (x0 m c) (x2 m c) := by
  show StableHlo.after hostOps1 (W2 m ρ c) (Proc.devRef .tc main_v4) = _
  after_results_simp
  exact W2_v4 m ρ c
theorem W3_v1 : W3 m ρ c (Proc.devRef .tc main_v1) = val_main_v1 (x1 m c) := by
  show StableHlo.after hostOps1 (W2 m ρ c) (Proc.devRef .tc main_v1) = _
  after_results_simp
  exact W2_v1 m ρ c
theorem W3_v3 : W3 m ρ c (Proc.devRef .tc main_v3) = val_main_v3 (x1 m c) := by
  show StableHlo.after hostOps1 (W2 m ρ c) (Proc.devRef .tc main_v3) = _
  after_results_simp
  exact W2_v3 m ρ c
theorem W3_arg4 : W3 m ρ c (Proc.devRef .tc main_arg4) = (x4 m c) := by
  show StableHlo.after hostOps1 (W2 m ρ c) (Proc.devRef .tc main_arg4) = _
  after_results_simp
  exact W2_arg4 m ρ c
theorem W3_arg5 : W3 m ρ c (Proc.devRef .tc main_arg5) = (x5 m c) := by
  show StableHlo.after hostOps1 (W2 m ρ c) (Proc.devRef .tc main_arg5) = _
  after_results_simp
  exact W2_arg5 m ρ c

/-! ## After the hidden layer's combine stage -/

theorem W4_v43 : W4 m ρ c (Proc.devRef .tc main_v43) = val_main_v48 (x0 m c) (x1 m c) (x2 m c) (x3 m c) :=
  (W4_arr m ρ c 4).trans ((Cert.KernelIdeal.Blocks.final1 (V3 m ρ) c).trans (by
    rw [show V3 m ρ c main_v41 = val_main_v39 (x0 m c) (x1 m c) (x2 m c) from W3_v41 m ρ c, show V3 m ρ c main_v4 = val_main_v4 (x0 m c) (x2 m c) from W3_v4 m ρ c,
      show V3 m ρ c main_v28 = val_main_v41 (x1 m c) from W3_v28 m ρ c, show V3 m ρ c main_v42 = val_main_v45 (x3 m c) from W3_v42 m ρ c]
    rfl))
theorem W4_v28 : W4 m ρ c (Proc.devRef .tc main_v28) = val_main_v41 (x1 m c) :=
  (W4_arr m ρ c 2).trans (((dat1 (V3 m ρ) c).arrAt_in 2 rfl _).trans ((A_eq1 (V3 m ρ) c 2).trans (W3_v28 m ρ c)))
theorem W4_v26 : W4 m ρ c (Proc.devRef .tc main_v26) = val_main_v26 (x1 m c) := (W4_of_ne m ρ c main_v26 (by decide)).trans (W3_v26 m ρ c)
theorem W4_v1 : W4 m ρ c (Proc.devRef .tc main_v1) = val_main_v1 (x1 m c) := (W4_of_ne m ρ c main_v1 (by decide)).trans (W3_v1 m ρ c)
theorem W4_v3 : W4 m ρ c (Proc.devRef .tc main_v3) = val_main_v3 (x1 m c) := (W4_of_ne m ρ c main_v3 (by decide)).trans (W3_v3 m ρ c)
theorem W4_arg4 : W4 m ρ c (Proc.devRef .tc main_arg4) = (x4 m c) := (W4_of_ne m ρ c main_arg4 (by decide)).trans (W3_arg4 m ρ c)
theorem W4_arg5 : W4 m ρ c (Proc.devRef .tc main_arg5) = (x5 m c) := (W4_of_ne m ρ c main_arg5 (by decide)).trans (W3_arg5 m ρ c)

/-! ## After the second product -/

theorem W5_v44 : W5 m ρ c (Proc.devRef .tc main_v44) = val_main_v49 (x0 m c) (x1 m c) (x2 m c) (x3 m c) (x4 m c) :=
  (W5_arr m ρ c 2).trans ((Cert.KernelIdeal.Blocks.final2 (V4 m ρ) c).trans (by
    rw [show V4 m ρ c main_v43 = val_main_v48 (x0 m c) (x1 m c) (x2 m c) (x3 m c) from W4_v43 m ρ c, show V4 m ρ c main_arg4 = (x4 m c) from W4_arg4 m ρ c]
    rfl))
theorem W5_v28 : W5 m ρ c (Proc.devRef .tc main_v28) = val_main_v41 (x1 m c) := (W5_of_ne m ρ c main_v28 (by decide)).trans (W4_v28 m ρ c)
theorem W5_v26 : W5 m ρ c (Proc.devRef .tc main_v26) = val_main_v26 (x1 m c) := (W5_of_ne m ρ c main_v26 (by decide)).trans (W4_v26 m ρ c)
theorem W5_v1 : W5 m ρ c (Proc.devRef .tc main_v1) = val_main_v1 (x1 m c) := (W5_of_ne m ρ c main_v1 (by decide)).trans (W4_v1 m ρ c)
theorem W5_v3 : W5 m ρ c (Proc.devRef .tc main_v3) = val_main_v3 (x1 m c) := (W5_of_ne m ρ c main_v3 (by decide)).trans (W4_v3 m ρ c)
theorem W5_arg5 : W5 m ρ c (Proc.devRef .tc main_arg5) = (x5 m c) := (W5_of_ne m ρ c main_arg5 (by decide)).trans (W4_arg5 m ρ c)

/-! ## After the second host stretch: the second aggregation (with the same normalisation weights), the bias row -/

theorem W6_v57 : W6 m ρ c (Proc.devRef .tc main_v57) = val_main_v84 (x0 m c) (x1 m c) (x2 m c) (x3 m c) (x4 m c) := by
  show StableHlo.after hostOps3 (W5 m ρ c) (Proc.devRef .tc main_v57) = _
  after_results_simp
  rw [W5_v1, W5_v3, W5_v44, W5_v26]
  rfl
theorem W6_v44 : W6 m ρ c (Proc.devRef .tc main_v44) = val_main_v49 (x0 m c) (x1 m c) (x2 m c) (x3 m c) (x4 m c) := by
  show StableHlo.after hostOps3 (W5 m ρ c) (Proc.devRef .tc main_v44) = _
  after_results_simp
  exact W5_v44 m ρ c
theorem W6_v28 : W6 m ρ c (Proc.devRef .tc main_v28) = val_main_v41 (x1 m c) := by
  show StableHlo.after hostOps3 (W5 m ρ c) (Proc.devRef .tc main_v28) = _
  after_results_simp
  exact W5_v28 m ρ c
theorem W6_v58 : W6 m ρ c (Proc.devRef .tc main_v58) = val_main_v90 (x5 m c) := by
  show StableHlo.after hostOps3 (W5 m ρ c) (Proc.devRef .tc main_v58) = _
  after_results_simp
  rw [W5_arg5]
  exact Cert.LibVec.row_of_vec (n := 64) (x5 m c) _ _ (by decide)

/-! ## At the end: the result -/

/-- The kernel's result buffer ends at the reference's last stage of the six arguments. -/
theorem W7_v59 : W7 m ρ c (Proc.devRef .tc main_v59) = val_main_v92 (x0 m c) (x1 m c) (x2 m c) (x3 m c) (x4 m c) (x5 m c) :=
  (W7_arr m ρ c 4).trans ((Cert.KernelIdeal.Blocks.final3 (V6 m ρ) c).trans (by
    rw [show V6 m ρ c main_v57 = val_main_v84 (x0 m c) (x1 m c) (x2 m c) (x3 m c) (x4 m c) from W6_v57 m ρ c, show V6 m ρ c main_v44 = val_main_v49 (x0 m c) (x1 m c) (x2 m c) (x3 m c) (x4 m c) from W6_v44 m ρ c,
      show V6 m ρ c main_v28 = val_main_v41 (x1 m c) from W6_v28 m ρ c, show V6 m ρ c main_v58 = val_main_v90 (x5 m c) from W6_v58 m ρ c]
    rfl))

end Cert.Bridge

end
-- ==== Proof.lean ====
/-
  The certificate of a two-layer graph convolution: a kernel that tiles its dense stages, against the plain reference.

  Both programs compute, for node features x (100000 × 128), an edge list (source and destination of 1600000 edges),
  weights W1 (128 × 128), W2 (128 × 64) and biases b1, b2,

      layer(h, b) = agg(h) + h ⊙ dinv² + b,    agg(h)[v] = Σ over edges e into v of  h[src e] · dinv[src e] · dinv[dst e],
      dinv = (1 + number of edges into each node)^(-1/2),
      result = layer(max(layer(x · W1, b1), 0) · W2, b2),

  with the degree count, the normalisation, the gathers and the scatter-additions done by the same host operations in
  both. The reference does the two matrix products and the two  agg + h ⊙ dinv² + b  stages on whole arrays; the
  kernel does each of the four in a grid of 20 points over tiles of 5000 rows, narrowing the products' operands to a
  shorter float format (the identity on the extended reals), laying each bias vector as a 1 × d row by re-laying
  instead of broadcasting, and computing the normalisation once instead of once per layer. Every one of the tiled
  stages is row-local, so the tiles of the result are the tiles of the whole-array expression, and the two programs
  compute the same function of their arguments operation by operation: no algebraic law is needed beyond that, and
  the finiteness of the inputs is never used.

  The three frames: the kernel's two are the generated frame runs; the reference's is its generated run with the
  result dropped. The idealization rewrote no operation, so it preserves the kernel trivially. The value claim: the
  kernel's run ends with its result at the last boundary's contents, which is the reference's last stage of the
  arguments; the reference's run ends at its composed term, which is that stage too.
-/
import proofs.«124086_j14388140441815_1_alg».proof.Defs
import proofs.«124086_j14388140441815_1_alg».proof.Proof.Gen.Kernel
import proofs.«124086_j14388140441815_1_alg».proof.Proof.Gen.Kernel.Skeleton
import proofs.«124086_j14388140441815_1_alg».proof.Proof.Gen.Kernel.Launch
import proofs.«124086_j14388140441815_1_alg».proof.Proof.Gen.Kernel.Points
import proofs.«124086_j14388140441815_1_alg».proof.Proof.Gen.Kernel.Frame
import proofs.«124086_j14388140441815_1_alg».proof.Proof.Gen.KernelIdeal
import proofs.«124086_j14388140441815_1_alg».proof.Proof.Gen.KernelIdeal.Skeleton
import proofs.«124086_j14388140441815_1_alg».proof.Proof.Gen.KernelIdeal.Launch
import proofs.«124086_j14388140441815_1_alg».proof.Proof.Gen.KernelIdeal.Points
import proofs.«124086_j14388140441815_1_alg».proof.Proof.Gen.KernelIdeal.Frame
import proofs.«124086_j14388140441815_1_alg».proof.Proof.Gen.ReferenceIdeal
import proofs.«124086_j14388140441815_1_alg».proof.Proof.Gen.Pre_finite_inputs
import proofs.«124086_j14388140441815_1_alg».proof.Proof.Gen.ReferenceIdeal.Run
import proofs.«124086_j14388140441815_1_alg».proof.Proof.Gen.ReferenceIdeal.Read
import proofs.«124086_j14388140441815_1_alg».proof.Proof.KernelRun
import proofs.«124086_j14388140441815_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both runs end with the result at the reference's last stage of the (shared) arguments. -/
theorem algebraic : Cert.algebraic_KernelIdeal_ReferenceIdeal := by
  intro m ρ m' ρ' _ hagree
  refine ⟨_, (θ_run Cert.KernelIdeal.defs _ _).mono (fun r h c => ⟨(h c).1.trans (Cert.Bridge.W7_v59 m ρ c), (h c).2⟩)
    (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
